-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x256 : Shape := ⟨2, ![1024, 256]⟩
abbrev S1024 : Shape := ⟨1, ![1024]⟩
abbrev S1024x32 : Shape := ⟨2, ![1024, 32]⟩
abbrev S100000x256 : Shape := ⟨2, ![100000, 256]⟩
abbrev S_ : Shape := ⟨0, ![]⟩

class Facts : Prop where
  bcast_S_S1024x256 : S_.BroadcastsInDim S1024x256 (![] : Fin 0 → Fin S1024x256.rank)
  reducesTo_S1024x256_S_d0_1 : S1024x256.ReducesTo [0, 1] S_
  h_S_ : 0 < S_.numel
  bcast_S_S100000x256 : S_.BroadcastsInDim S100000x256 (![] : Fin 0 → Fin S100000x256.rank)
  reducesTo_S100000x256_S_d0_1 : S100000x256.ReducesTo [0, 1] S_

variable [Facts]

def fn {F : FTy → Type} [FloatOps F] (main_arg0 : FVec F S1024x256 .f32) (main_arg1 : IVec S1024 32) (main_arg2 : IVec S1024x32 32) (main_arg3 : FVec F S100000x256 .f32) : IVec S_ 1 :=
  let main_v0 : FVec F S1024x256 .f32 := Host.absf main_arg0
  let main_cst : FVec F S_ .f32 := constant S_ .f32 0x7F800000#32
  let main_v1 : FVec F S1024x256 .f32 := broadcastInDim S1024x256 ![] bcast_S_S1024x256 main_cst
  let main_v2 : IVec S1024x256 1 := cmpf .olt main_v0 main_v1
  let main_c : IVec S_ 1 := constantI S_ 1 1#1
  let main_v3 : IVec S_ 1 := (fun x v => Host.reduce IntOp.andi x v reducesTo_S1024x256_S_d0_1 h_S_) main_v2 main_c
  let main_v4 : FVec F S100000x256 .f32 := Host.absf main_arg3
  let main_cst_0 : FVec F S_ .f32 := constant S_ .f32 0x7F800000#32
  let main_v5 : FVec F S100000x256 .f32 := broadcastInDim S100000x256 ![] bcast_S_S100000x256 main_cst_0
  let main_v6 : IVec S100000x256 1 := cmpf .olt main_v4 main_v5
  let main_c_1 : IVec S_ 1 := constantI S_ 1 1#1
  let main_v7 : IVec S_ 1 := (fun x v => Host.reduce IntOp.andi x v reducesTo_S100000x256_S_d0_1 h_S_) main_v6 main_c_1
  let main_v8 : IVec S_ 1 := andi main_v3 main_v7
  main_v8
-- ==== Kernel.lean ====
abbrev S1024x256 : Shape := ⟨2, ![1024, 256]⟩
abbrev S1024 : Shape := ⟨1, ![1024]⟩
abbrev S1024x32 : Shape := ⟨2, ![1024, 32]⟩
abbrev S100000x256 : Shape := ⟨2, ![100000, 256]⟩
abbrev S_ : Shape := ⟨0, ![]⟩
abbrev S1024x1 : Shape := ⟨2, ![1024, 1]⟩
abbrev S32768 : Shape := ⟨1, ![32768]⟩
abbrev S32768x1 : Shape := ⟨2, ![32768, 1]⟩
abbrev S32768x256 : Shape := ⟨2, ![32768, 256]⟩
abbrev S16x256 : Shape := ⟨2, ![16, 256]⟩
abbrev S512x256 : Shape := ⟨2, ![512, 256]⟩
abbrev S256x16 : Shape := ⟨2, ![256, 16]⟩
abbrev S1024x16 : Shape := ⟨2, ![1024, 16]⟩
abbrev S256x512 : Shape := ⟨2, ![256, 512]⟩
abbrev S1024x512 : Shape := ⟨2, ![1024, 512]⟩
abbrev S1024x16x32 : Shape := ⟨3, ![1024, 16, 32]⟩

abbrev nBuf : Space → Nat
  | .hbm => 25
  | .vmem => 6
  | .smem => 0
  | _ => 0

abbrev bufTy : (tb : Table) → Fin (tcTables nBuf tb) → BufTy
  | .hbm, ⟨0, _⟩ => ⟨S1024x256, .f32⟩
  | .hbm, ⟨1, _⟩ => ⟨S1024, .i32⟩
  | .hbm, ⟨2, _⟩ => ⟨S1024x32, .i32⟩
  | .hbm, ⟨3, _⟩ => ⟨S100000x256, .f32⟩
  | .hbm, ⟨4, _⟩ => ⟨S_, .i32⟩
  | .hbm, ⟨5, _⟩ => ⟨S1024, .i32⟩
  | .hbm, ⟨6, _⟩ => ⟨S1024, .i1⟩
  | .hbm, ⟨7, _⟩ => ⟨S_, .i32⟩
  | .hbm, ⟨8, _⟩ => ⟨S1024, .i32⟩
  | .hbm, ⟨9, _⟩ => ⟨S1024, .i32⟩
  | .hbm, ⟨10, _⟩ => ⟨S1024, .i32⟩
  | .hbm, ⟨11, _⟩ => ⟨S1024x1, .i32⟩
  | .hbm, ⟨12, _⟩ => ⟨S1024x256, .f32⟩
  | .hbm, ⟨13, _⟩ => ⟨S32768, .i32⟩
  | .hbm, ⟨14, _⟩ => ⟨S_, .i32⟩
  | .hbm, ⟨15, _⟩ => ⟨S32768, .i32⟩
  | .hbm, ⟨16, _⟩ => ⟨S32768, .i1⟩
  | .hbm, ⟨17, _⟩ => ⟨S_, .i32⟩
  | .hbm, ⟨18, _⟩ => ⟨S32768, .i32⟩
  | .hbm, ⟨19, _⟩ => ⟨S32768, .i32⟩
  | .hbm, ⟨20, _⟩ => ⟨S32768, .i32⟩
  | .hbm, ⟨21, _⟩ => ⟨S32768x1, .i32⟩
  | .hbm, ⟨22, _⟩ => ⟨S32768x256, .f32⟩
  | .hbm, ⟨23, _⟩ => ⟨S1024x1, .f32⟩
  | .hbm, ⟨24, _⟩ => ⟨S1024, .f32⟩
  | .local _ .vmem, ⟨0, _⟩ => ⟨S1024x256, .f32⟩
  | .local _ .vmem, ⟨1, _⟩ => ⟨S16x256, .f32⟩
  | .local _ .vmem, ⟨2, _⟩ => ⟨S16x256, .f32⟩
  | .local _ .vmem, ⟨3, _⟩ => ⟨S512x256, .f32⟩
  | .local _ .vmem, ⟨4, _⟩ => ⟨S512x256, .f32⟩
  | .local _ .vmem, ⟨5, _⟩ => ⟨S1024x1, .f32⟩
  | _, _ => ⟨S1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c_1 : Ref sig .tc := ⟨.hbm, 14, rfl⟩
abbrev main_v8 : Ref sig .tc := ⟨.hbm, 15, rfl⟩
abbrev main_v9 : Ref sig .tc := ⟨.hbm, 16, rfl⟩
abbrev main_c_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1024x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S16x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

class Facts₀ : Prop where
  bcast_S_S1024 : S_.BroadcastsInDim S1024 (![] : Fin 0 → Fin S1024.rank)
  bcast_S1024_S1024x1_0 : S1024.BroadcastsInDim S1024x1 (![0] : Fin 1 → Fin S1024x1.rank)
  shapeCasts_S1024x32_S32768 : S1024x32.ShapeCasts S32768
  bcast_S_S32768 : S_.BroadcastsInDim S32768 (![] : Fin 0 → Fin S32768.rank)
  bcast_S32768_S32768x1_0 : S32768.BroadcastsInDim S32768x1 (![0] : Fin 1 → Fin S32768x1.rank)
  inb_S1024x1_S1024x1_0_0 : ∀ a, (![0, 0] : Fin 2 → Nat) a + S1024x1.size a ≤ S1024x1.size a
  h_S1024x1 : 0 < S1024x1.numel
  inb_S1024x256_S1024x256_0_0 : ∀ a, (![0, 0] : Fin 2 → Nat) a + S1024x256.size a ≤ S1024x256.size a
  h_S1024x256 : 0 < S1024x256.numel
  bitsLt_bf16_f32 : FTy.bits .bf16 < FTy.bits .f32
  inb_S16x256_S16x256_0_0 : ∀ a, (![0, 0] : Fin 2 → Nat) a + S16x256.size a ≤ S16x256.size a
  h_S16x256 : 0 < S16x256.numel
  shapeCasts_S16x256_S16x256 : S16x256.ShapeCasts S16x256
  inb_S512x256_S512x256_0_0 : ∀ a, (![0, 0] : Fin 2 → Nat) a + S512x256.size a ≤ S512x256.size a
  h_S512x256 : 0 < S512x256.numel
  shapeCasts_S512x256_S512x256 : S512x256.ShapeCasts S512x256
  transposes_S16x256_p1_0_S256x16 : S16x256.Transposes [1, 0] S256x16
  transposes_S512x256_p1_0_S256x512 : S512x256.Transposes [1, 0] S256x512
  shapeCasts_S1024x512_S1024x16x32 : S1024x512.ShapeCasts S1024x16x32
  reduces_S1024x16x32_S1024x16 : S1024x16x32.Reduces [2] S1024x16
  reduces_S1024x16_S1024 : S1024x16.Reduces [1] S1024
  shapeCasts_S1024_S1024x1 : S1024.ShapeCasts S1024x1
  shapeCasts_S1024x1_S1024x1 : S1024x1.ShapeCasts S1024x1
  shapeCasts_S1024x1_S1024 : S1024x1.ShapeCasts S1024
  gather_S100000x256_S1024x1_S1024x256_1_0_n_n_0_1_1256_wf : GatherDims.WF S100000x256 S1024x1 S1024x256 [1] [0] [] [0] [] 1 ![1, 256]
  gather_S100000x256_S32768x1_S32768x256_1_0_n_n_0_1_1256_wf : GatherDims.WF S100000x256 S32768x1 S32768x256 [1] [0] [] [0] [] 1 ![1, 256]
  dot_S1024x256_S256x16_S1024x16_1_0_0_1_n_n_wf : DotDims.WF S1024x256 S256x16 S1024x16 [1] [0] [0] [1] [] []
  dot_S1024x256_S256x512_S1024x512_1_0_0_1_n_n_wf : DotDims.WF S1024x256 S256x512 S1024x512 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S1024x256.size a
  hwx0_0 : ∀ i : grid0.Coords, EltTy.bits .f32 = 32 ∨ (Rect.block (s := S1024x256) S1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x256.size a ≤ S1024x256.size a
  hwx0_1 : ∀ i : grid0.Coords, EltTy.bits .f32 = 32 ∨ (Rect.block (s := S1024x256) S16x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x256.size a ≤ S32768x256.size a
  hwx0_2 : ∀ i : grid0.Coords, EltTy.bits .f32 = 32 ∨ (Rect.block (s := S32768x256) S512x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1.size a ≤ S1024x1.size a
  hwx0_3 : ∀ i : grid0.Coords, EltTy.bits .f32 = 32 ∨ (Rect.block (s := S1024x1) S1024x1.size (cc0_transform_3 i) (hinb0_3 i)).WholeWords (EltTy.packing .f32)

variable [Facts₀]

def gather_S100000x256_S1024x1_S1024x256_1_0_n_n_0_1_1256 : GatherDims S100000x256 S1024x1 S1024x256 where
  offsetDims := [1]
  collapsedSliceDims := [0]
  operandBatchingDims := []
  startIndicesBatchingDims := []
  startIndexMap := [0]
  indexVectorDim := 1
  sliceSizes := ![1, 256]
  wf := gather_S100000x256_S1024x1_S1024x256_1_0_n_n_0_1_1256_wf
def gather_S100000x256_S32768x1_S32768x256_1_0_n_n_0_1_1256 : GatherDims S100000x256 S32768x1 S32768x256 where
  offsetDims := [1]
  collapsedSliceDims := [0]
  operandBatchingDims := []
  startIndicesBatchingDims := []
  startIndexMap := [0]
  indexVectorDim := 1
  sliceSizes := ![1, 256]
  wf := gather_S100000x256_S32768x1_S32768x256_1_0_n_n_0_1_1256_wf
def dot_S1024x256_S256x16_S1024x16_1_0_0_1_n_n : DotDims S1024x256 S256x16 S1024x16 where
  lhsContracting := [1]
  rhsContracting := [0]
  lhsNonContracting := [0]
  rhsNonContracting := [1]
  lhsBatch := []
  rhsBatch := []
  wf := dot_S1024x256_S256x16_S1024x16_1_0_0_1_n_n_wf
def dot_S1024x256_S256x512_S1024x512_1_0_0_1_n_n : DotDims S1024x256 S256x512 S1024x512 where
  lhsContracting := [1]
  rhsContracting := [0]
  lhsNonContracting := [0]
  rhsNonContracting := [1]
  lhsBatch := []
  rhsBatch := []
  wf := dot_S1024x256_S256x512_S1024x512_1_0_0_1_n_n_wf

abbrev win0_0 : Pipeline.Window sig grid0 :=
  Pipeline.Window.ofSpec (Memref.whole main_arg0) S1024x256.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v6) S16x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S512x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v15) S1024x1.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S1024x256 : Shape := ⟨2, ![1024, 256]⟩
abbrev S1024 : Shape := ⟨1, ![1024]⟩
abbrev S1024x32 : Shape := ⟨2, ![1024, 32]⟩
abbrev S100000x256 : Shape := ⟨2, ![100000, 256]⟩
abbrev S_ : Shape := ⟨0, ![]⟩
abbrev S1024x1 : Shape := ⟨2, ![1024, 1]⟩
abbrev S256x1024 : Shape := ⟨2, ![256, 1024]⟩
abbrev S1024x1024 : Shape := ⟨2, ![1024, 1024]⟩
abbrev S32768 : Shape := ⟨1, ![32768]⟩
abbrev S32768x1 : Shape := ⟨2, ![32768, 1]⟩
abbrev S32768x256 : Shape := ⟨2, ![32768, 256]⟩
abbrev S256x32768 : Shape := ⟨2, ![256, 32768]⟩
abbrev S1024x32768 : Shape := ⟨2, ![1024, 32768]⟩
abbrev S1024x1024x32 : Shape := ⟨3, ![1024, 1024, 32]⟩

abbrev nBuf : Space → Nat
  | .hbm => 35
  | .vmem => 0
  | .smem => 0
  | _ => 0

abbrev bufTy : (tb : Table) → Fin (tcTables nBuf tb) → BufTy
  | .hbm, ⟨0, _⟩ => ⟨S1024x256, .f32⟩
  | .hbm, ⟨1, _⟩ => ⟨S1024, .i32⟩
  | .hbm, ⟨2, _⟩ => ⟨S1024x32, .i32⟩
  | .hbm, ⟨3, _⟩ => ⟨S100000x256, .f32⟩
  | .hbm, ⟨4, _⟩ => ⟨S_, .i32⟩
  | .hbm, ⟨5, _⟩ => ⟨S1024, .i32⟩
  | .hbm, ⟨6, _⟩ => ⟨S1024, .i1⟩
  | .hbm, ⟨7, _⟩ => ⟨S_, .i32⟩
  | .hbm, ⟨8, _⟩ => ⟨S1024, .i32⟩
  | .hbm, ⟨9, _⟩ => ⟨S1024, .i32⟩
  | .hbm, ⟨10, _⟩ => ⟨S1024, .i32⟩
  | .hbm, ⟨11, _⟩ => ⟨S1024x1, .i32⟩
  | .hbm, ⟨12, _⟩ => ⟨S1024x256, .f32⟩
  | .hbm, ⟨13, _⟩ => ⟨S256x1024, .f32⟩
  | .hbm, ⟨14, _⟩ => ⟨S1024x1024, .f32⟩
  | .hbm, ⟨15, _⟩ => ⟨S32768, .i32⟩
  | .hbm, ⟨16, _⟩ => ⟨S_, .i32⟩
  | .hbm, ⟨17, _⟩ => ⟨S32768, .i32⟩
  | .hbm, ⟨18, _⟩ => ⟨S32768, .i1⟩
  | .hbm, ⟨19, _⟩ => ⟨S_, .i32⟩
  | .hbm, ⟨20, _⟩ => ⟨S32768, .i32⟩
  | .hbm, ⟨21, _⟩ => ⟨S32768, .i32⟩
  | .hbm, ⟨22, _⟩ => ⟨S32768, .i32⟩
  | .hbm, ⟨23, _⟩ => ⟨S32768x1, .i32⟩
  | .hbm, ⟨24, _⟩ => ⟨S32768x256, .f32⟩
  | .hbm, ⟨25, _⟩ => ⟨S256x32768, .f32⟩
  | .hbm, ⟨26, _⟩ => ⟨S1024x32768, .f32⟩
  | .hbm, ⟨27, _⟩ => ⟨S1024x1024x32, .f32⟩
  | .hbm, ⟨28, _⟩ => ⟨S1024x1024x32, .f32⟩
  | .hbm, ⟨29, _⟩ => ⟨S_, .f32⟩
  | .hbm, ⟨30, _⟩ => ⟨S1024x1024, .f32⟩
  | .hbm, ⟨31, _⟩ => ⟨S1024x1024, .f32⟩
  | .hbm, ⟨32, _⟩ => ⟨S1024x1024, .f32⟩
  | .hbm, ⟨33, _⟩ => ⟨S_, .f32⟩
  | .hbm, ⟨34, _⟩ => ⟨S1024, .f32⟩
  | _, _ => ⟨S1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c_1 : Ref sig .tc := ⟨.hbm, 16, rfl⟩
abbrev main_v10 : Ref sig .tc := ⟨.hbm, 17, rfl⟩
abbrev main_v11 : Ref sig .tc := ⟨.hbm, 18, rfl⟩
abbrev main_c_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_3 : Ref sig .tc := ⟨.hbm, 33, rfl⟩
abbrev main_v24 : Ref sig .tc := ⟨.hbm, 34, rfl⟩

abbrev nD : Nat := 1
abbrev τ : Topo := Topo.v7x

variable {F : FTy → Type} [FloatOps F]

class Facts₀ : Prop where
  bcast_S_S1024 : S_.BroadcastsInDim S1024 (![] : Fin 0 → Fin S1024.rank)
  bcast_S1024_S1024x1_0 : S1024.BroadcastsInDim S1024x1 (![0] : Fin 1 → Fin S1024x1.rank)
  transposes_S1024x256_S256x1024_1_0 : S1024x256.Transposes [1, 0] S256x1024
  shapeCasts_S1024x32_S32768 : S1024x32.ShapeCasts S32768
  bcast_S_S32768 : S_.BroadcastsInDim S32768 (![] : Fin 0 → Fin S32768.rank)
  bcast_S32768_S32768x1_0 : S32768.BroadcastsInDim S32768x1 (![0] : Fin 1 → Fin S32768x1.rank)
  transposes_S32768x256_S256x32768_1_0 : S32768x256.Transposes [1, 0] S256x32768
  shapeCasts_S1024x32768_S1024x1024x32 : S1024x32768.ShapeCasts S1024x1024x32
  reducesTo_S1024x1024x32_S1024x1024_d2 : S1024x1024x32.ReducesTo [2] S1024x1024
  h_S_ : 0 < S_.numel
  reducesTo_S1024x1024_S1024_d1 : S1024x1024.ReducesTo [1] S1024
  gather_S100000x256_S1024x1_S1024x256_1_0_n_n_0_1_1256_wf : GatherDims.WF S100000x256 S1024x1 S1024x256 [1] [0] [] [0] [] 1 ![1, 256]
  dot_S1024x256_S256x1024_S1024x1024_1_0_0_1_n_n_wf : DotDims.WF S1024x256 S256x1024 S1024x1024 [1] [0] [0] [1] [] []
  gather_S100000x256_S32768x1_S32768x256_1_0_n_n_0_1_1256_wf : GatherDims.WF S100000x256 S32768x1 S32768x256 [1] [0] [] [0] [] 1 ![1, 256]
  dot_S1024x256_S256x32768_S1024x32768_1_0_0_1_n_n_wf : DotDims.WF S1024x256 S256x32768 S1024x32768 [1] [0] [0] [1] [] []

variable [Facts₀]

def gather_S100000x256_S1024x1_S1024x256_1_0_n_n_0_1_1256 : GatherDims S100000x256 S1024x1 S1024x256 where
  offsetDims := [1]
  collapsedSliceDims := [0]
  operandBatchingDims := []
  startIndicesBatchingDims := []
  startIndexMap := [0]
  indexVectorDim := 1
  sliceSizes := ![1, 256]
  wf := gather_S100000x256_S1024x1_S1024x256_1_0_n_n_0_1_1256_wf
def dot_S1024x256_S256x1024_S1024x1024_1_0_0_1_n_n : DotDims S1024x256 S256x1024 S1024x1024 where
  lhsContracting := [1]
  rhsContracting := [0]
  lhsNonContracting := [0]
  rhsNonContracting := [1]
  lhsBatch := []
  rhsBatch := []
  wf := dot_S1024x256_S256x1024_S1024x1024_1_0_0_1_n_n_wf
def gather_S100000x256_S32768x1_S32768x256_1_0_n_n_0_1_1256 : GatherDims S100000x256 S32768x1 S32768x256 where
  offsetDims := [1]
  collapsedSliceDims := [0]
  operandBatchingDims := []
  startIndicesBatchingDims := []
  startIndexMap := [0]
  indexVectorDim := 1
  sliceSizes := ![1, 256]
  wf := gather_S100000x256_S32768x1_S32768x256_1_0_n_n_0_1_1256_wf
def dot_S1024x256_S256x32768_S1024x32768_1_0_0_1_n_n : DotDims S1024x256 S256x32768 S1024x32768 where
  lhsContracting := [1]
  rhsContracting := [0]
  lhsNonContracting := [0]
  rhsNonContracting := [1]
  lhsBatch := []
  rhsBatch := []
  wf := dot_S1024x256_S256x32768_S1024x32768_1_0_0_1_n_n_wf

class Facts : Prop extends Facts₀ where

variable [Facts]
-- ==== Proof.LossSpec.lean ====
/-
  The sampled-softmax loss both programs compute, as one function of three real-valued tables, and the law that
  joins their two arrangements of it.

  For a batch row `b` and a label row `i` write `x_b · w` for the inner product over the 256 hidden coordinates.
  The term of the pair `(b, i)` is
      log (∑ k < 32, exp (x_b · sw_(32 i + k))) - x_b · tw_i
  (`sw` holds 32 consecutive sampled rows per label row, `tw` one true row per label row), and the loss of `b` is the
  sum of its 1024 terms. One program adds the 1024 terms at once; the other walks the label rows in 64 consecutive
  groups of 16, adding each group's sum to a running total that starts at the float zero. On the extended reals
  addition is commutative and associative at every value, infinite ones included, so the running total after the last
  group is the whole sum (`running_last`); nothing here needs the entries to be finite.
-/
import Idealize.ShloMosaic.PureOps.Ideal.Laws
import Idealize.ShloMosaic.Lib.ValueIdx

noncomputable section

namespace Cert.LossSpec

open Idealize.ShloMosaic Idealize.ShloMosaic.ValueIdx

/-- Row `32 i + k` of the sampled table: the `k`-th sample of label row `i`. -/
abbrev sampleRow (i : Fin 1024) (k : Fin 32) : Fin 32768 := ⟨i.val * 32 + k.val, by omega⟩

/-- `x_b · tw_i`. -/
def trueScore (x tw : (⟨2, ![1024, 256]⟩ : Shape).Idx → EReal) (b i : Fin 1024) : EReal :=
  ∑ h : Fin 256, x (ix2 b h) * tw (ix2 i h)

/-- `x_b · sw_r`. -/
def sampScore (x : (⟨2, ![1024, 256]⟩ : Shape).Idx → EReal) (sw : (⟨2, ![32768, 256]⟩ : Shape).Idx → EReal)
    (b : Fin 1024) (r : Fin 32768) : EReal :=
  ∑ h : Fin 256, x (ix2 b h) * sw (ix2 r h)

/-- The term of the pair `(b, i)`: the log of the summed exponentials of the 32 sampled scores, less the true score. -/
def rowTerm (x tw : (⟨2, ![1024, 256]⟩ : Shape).Idx → EReal) (sw : (⟨2, ![32768, 256]⟩ : Shape).Idx → EReal)
    (b i : Fin 1024) : EReal :=
  Ideal.log (∑ k : Fin 32, Ideal.exp (sampScore x sw b (sampleRow i k))) - trueScore x tw b i

/-- The loss of each batch row: the sum of its 1024 terms. -/
def loss (x tw : (⟨2, ![1024, 256]⟩ : Shape).Idx → EReal) (sw : (⟨2, ![32768, 256]⟩ : Shape).Idx → EReal) :
    (⟨1, ![1024]⟩ : Shape).Idx → EReal :=
  fun j => ∑ i : Fin 1024, rowTerm x tw sw (j 0) i

/-- The same term with the label row a natural number (zero past the last row), so that sums over ranges can be cut. -/
def rowTermN (x tw : (⟨2, ![1024, 256]⟩ : Shape).Idx → EReal) (sw : (⟨2, ![32768, 256]⟩ : Shape).Idx → EReal)
    (b : Fin 1024) (i : ℕ) : EReal :=
  if h : i < 1024 then rowTerm x tw sw b ⟨i, h⟩ else 0

theorem rowTermN_val (x tw : (⟨2, ![1024, 256]⟩ : Shape).Idx → EReal) (sw : (⟨2, ![32768, 256]⟩ : Shape).Idx → EReal)
    (b i : Fin 1024) : rowTermN x tw sw b i.val = rowTerm x tw sw b i := by
  unfold rowTermN
  rw [dif_pos i.isLt]

/-- The sum of the terms of group `t`: label rows `16 t` to `16 t + 15`. -/
def groupSum (x tw : (⟨2, ![1024, 256]⟩ : Shape).Idx → EReal) (sw : (⟨2, ![32768, 256]⟩ : Shape).Idx → EReal)
    (b : Fin 1024) (t : ℕ) : EReal :=
  ∑ a : Fin 16, rowTermN x tw sw b (16 * t + a.val)

/-- The running total after group `n`: the float zero plus the first group's sum, then one group's sum more each step. -/
def running (x tw : (⟨2, ![1024, 256]⟩ : Shape).Idx → EReal) (sw : (⟨2, ![32768, 256]⟩ : Shape).Idx → EReal)
    (b : Fin 1024) : ℕ → EReal
  | 0 => Ideal.ofBits .f32 0x00000000#32 + groupSum x tw sw b 0
  | n + 1 => running x tw sw b n + groupSum x tw sw b (n + 1)

/-- After group `n` the running total is the sum of the first `16 (n + 1)` terms. -/
theorem running_eq (x tw : (⟨2, ![1024, 256]⟩ : Shape).Idx → EReal) (sw : (⟨2, ![32768, 256]⟩ : Shape).Idx → EReal)
    (b : Fin 1024) (n : ℕ) :
    running x tw sw b n = ∑ i ∈ Finset.range (16 * (n + 1)), rowTermN x tw sw b i := by
  induction n with
  | zero =>
    unfold running groupSum
    rw [Ideal.ofBits_zero_f32, zero_add, Fin.sum_univ_eq_sum_range (fun a => rowTermN x tw sw b (16 * 0 + a)) 16]
    exact Finset.sum_congr rfl fun a _ => by rw [Nat.mul_zero, Nat.zero_add]
  | succ n ih =>
    unfold running groupSum
    rw [ih, Fin.sum_univ_eq_sum_range (fun a => rowTermN x tw sw b (16 * (n + 1) + a)) 16,
      show 16 * (n + 1 + 1) = 16 * (n + 1) + 16 from by ring, Finset.sum_range_add]

/-- So after the last group it is the loss. -/
theorem running_last (x tw : (⟨2, ![1024, 256]⟩ : Shape).Idx → EReal) (sw : (⟨2, ![32768, 256]⟩ : Shape).Idx → EReal)
    (j : (⟨1, ![1024]⟩ : Shape).Idx) : running x tw sw (j 0) 63 = loss x tw sw j := by
  refine (running_eq x tw sw (j 0) 63).trans ?_
  unfold loss
  refine (Fin.sum_univ_eq_sum_range (fun i => rowTermN x tw sw (j 0) i) 1024).symm.trans ?_
  exact Finset.sum_congr rfl fun i _ => rowTermN_val x tw sw (j 0) i

end Cert.LossSpec

end
-- ==== Proof.RefRead.lean ====
/-
  The reference side read index by index.

  The reference program forms two score tables from the batch `x` and two row gathers `tw`, `sw` of the weight table
  (both gathers stay opaque here): the true scores `x_b · tw_i` (a product with the transposed `tw`) and the sampled
  scores `x_b · sw_r` (a product with the transposed `sw`, whose 32768 columns are then regrouped as 1024 × 32, column
  `32 i + k` becoming entry `(i, k)`). It exponentiates the sampled scores, adds the 32 of each label row to a float
  zero, takes the logarithm, subtracts the true score, and adds the 1024 differences of each batch row to a float zero.
  Reading every stage at an index shows that this is the loss of `LossSpec` at the two gathered tables.
-/
import proofs.«119711_j52596169507059_2_alg».proof.Proof.Gen.ReferenceIdeal.Read
import Idealize.ShloMosaic.Lib.ValueIdx
import Idealize.ShloMosaic.PureOps.Ideal.Laws
import proofs.«119711_j52596169507059_2_alg».proof.Proof.LossSpec

noncomputable section

namespace Cert.RefRead

open Cert.ReferenceIdeal Cert.ReferenceIdeal.Read Idealize.ShloMosaic Idealize.ShloMosaic.ValueIdx Cert.LossSpec

/-- The entry `(b, i)` of the first product is the true score of the pair: the product's left factor is read at
    `(b, h)`, and its right factor, the transposed true table, at `(h, i)`, which is the true table at `(i, h)`. -/
theorem true_score (x0 : (⟨S1024x256, .f32⟩ : BufTy).Contents (Elt Ideal))
    (x1 : (⟨S1024, .i32⟩ : BufTy).Contents (Elt Ideal))
    (x3 : (⟨S100000x256, .f32⟩ : BufTy).Contents (Elt Ideal)) (b i : Fin 1024) :
    val_main_v8 (F := Ideal) x0 x1 x3 (ix2 b i)
      = trueScore x0 (val_main_v6 (F := Ideal) x1 x3) b i := by
  rw [val_main_v8_apply]
  unfold trueScore
  refine Finset.sum_congr rfl fun h _ => ?_
  rw [val_main_v7_apply]
  have e1 : lidx_main_v8 (ix2 b i) h = ix2 b h := funext fun a => Fin.ext (by
    match a with
    | ⟨0, _⟩ => rfl
    | ⟨1, _⟩ => rfl)
  have e2 : idx_main_v7 (ridx_main_v8 (ix2 b i) h) = ix2 i h := funext fun a => Fin.ext (by
    match a with
    | ⟨0, _⟩ => rfl
    | ⟨1, _⟩ => rfl)
  rw [e1, e2]

/-- The entry `(b, i, k)` of the regrouped second product is the sampled score of `b` against row `32 i + k`: its
    row-major position `(1024 b + i) · 32 + k` is `32768 b + (32 i + k)` with `32 i + k < 32768`, so the entry is read
    from row `b`, column `32 i + k` of the product. -/
theorem samp_score (x0 : (⟨S1024x256, .f32⟩ : BufTy).Contents (Elt Ideal))
    (x2 : (⟨S1024x32, .i32⟩ : BufTy).Contents (Elt Ideal))
    (x3 : (⟨S100000x256, .f32⟩ : BufTy).Contents (Elt Ideal)) (b i : Fin 1024) (k : Fin 32) :
    val_main_v19 (F := Ideal) x0 x2 x3 (ix3 b i k)
      = sampScore x0 (val_main_v16 (F := Ideal) x2 x3) b (sampleRow i k) := by
  have hb : b.val < 1024 := b.isLt
  have hi : i.val < 1024 := i.isLt
  have hk : k.val < 32 := k.isLt
  rw [val_main_v19_apply, val_main_v18_apply]
  unfold sampScore
  refine Finset.sum_congr rfl fun h _ => ?_
  rw [val_main_v17_apply]
  have e1 : lidx_main_v18 (idx_main_v19 (ix3 b i k)) h = ix2 b h := funext fun a => Fin.ext (by
    match a with
    | ⟨0, _⟩ => show ((b.val * 1024 + i.val) * 32 + k.val) / 32768 = b.val; omega
    | ⟨1, _⟩ => rfl)
  have e2 : idx_main_v17 (ridx_main_v18 (idx_main_v19 (ix3 b i k)) h) = ix2 (sampleRow i k) h :=
    funext fun a => Fin.ext (by
      match a with
      | ⟨0, _⟩ => show ((b.val * 1024 + i.val) * 32 + k.val) % 32768 = i.val * 32 + k.val; omega
      | ⟨1, _⟩ => rfl)
  rw [e1, e2]

/-- The difference stage at `(b, i)` is the term of the pair: the logarithm of the float zero plus the 32 exponentiated
    sampled scores of label row `i`, less the true score. -/
theorem row_term (x0 : (⟨S1024x256, .f32⟩ : BufTy).Contents (Elt Ideal))
    (x1 : (⟨S1024, .i32⟩ : BufTy).Contents (Elt Ideal))
    (x2 : (⟨S1024x32, .i32⟩ : BufTy).Contents (Elt Ideal))
    (x3 : (⟨S100000x256, .f32⟩ : BufTy).Contents (Elt Ideal)) (b i : Fin 1024) :
    val_main_v23 (F := Ideal) x0 x1 x2 x3 (ix2 b i)
      = rowTerm x0 (val_main_v6 (F := Ideal) x1 x3) (val_main_v16 (F := Ideal) x2 x3) b i := by
  rw [val_main_v23_apply, Ideal.subf_def, val_main_v22_apply, Ideal.hostUnary_log_def, val_main_v21_apply,
    val_main_cst_apply, Ideal.ofBits_def, Ideal.ofBits_zero_f32, zero_add, true_score]
  unfold rowTerm
  refine congrArg (fun t => Ideal.log t - _) (Finset.sum_congr rfl fun k _ => ?_)
  rw [val_main_v20_apply, Ideal.hostUnary_exp_def]
  have e21 : idx_main_v21 (ix2 b i) k = ix3 b i k := funext fun a => Fin.ext (by
    match a with
    | ⟨0, _⟩ => rfl
    | ⟨1, _⟩ => rfl
    | ⟨2, _⟩ => rfl)
  rw [e21, samp_score]

/-- The reference program's result is the loss at the two gathered tables: the last stage adds the 1024 terms of
    batch row `j 0` to a float zero. -/
theorem ref_is_loss (x0 : (⟨S1024x256, .f32⟩ : BufTy).Contents (Elt Ideal))
    (x1 : (⟨S1024, .i32⟩ : BufTy).Contents (Elt Ideal))
    (x2 : (⟨S1024x32, .i32⟩ : BufTy).Contents (Elt Ideal))
    (x3 : (⟨S100000x256, .f32⟩ : BufTy).Contents (Elt Ideal)) :
    val_main_v24 (F := Ideal) x0 x1 x2 x3
      = loss x0 (val_main_v6 (F := Ideal) x1 x3) (val_main_v16 (F := Ideal) x2 x3) := by
  funext j
  rw [val_main_v24_apply, val_main_cst_3_apply, Ideal.ofBits_def, Ideal.ofBits_zero_f32, zero_add]
  unfold loss
  refine Finset.sum_congr rfl fun i _ => ?_
  have e24 : idx_main_v24 j i = ix2 (n0 := 1024) (n1 := 1024) (j 0) i := funext fun a => Fin.ext (by
    match a with
    | ⟨0, _⟩ => rfl
    | ⟨1, _⟩ => rfl)
  exact (congrArg (val_main_v23 (F := Ideal) x0 x1 x2 x3) e24).trans (row_term x0 x1 x2 x3 (j 0) i)

end Cert.RefRead

end
-- ==== Proof.CaseValues.lean ====
/-
  What the kernel body leaves in the output column at each grid point, as values.

  The output column of 1024 running totals stays in one staging buffer across the 64 grid points. At the first point
  the body stores the zero column, reads it back and stores "zero column + this point's column of group sums"; at every
  later point it reads the column the point before left and stores "that column + this point's column". Both stores
  cover the whole buffer, so what the buffer holds after a point is the body's arithmetic applied to the point's three
  input blocks and the column read (`first_value`, `later_value`), and the column after point `n` is the chain of
  those applications from the zero column (`column_eq`, by induction on the point).
-/
import proofs.«119711_j52596169507059_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.LossKernel

open Cert.KernelIdeal Cert.KernelIdeal.Gen

variable {F : FTy → Type} [FloatOps F]
variable (m : (ℓ : Loc nD τ sig) → Buf (Elt F) ℓ) (ρ : Dev nD → PrngReg)

theorem hz : (![0, 0] : Fin 2 → Nat) = fun _ => 0 := funext fun a => by fin_cases a <;> rfl

/-- A later point: over the column `xo` the point before left, the body leaves its arithmetic of the three input blocks
    and `xo` — its one covering store's payload, whose loads read the whole buffers. -/
theorem later_value (c : Dev nD) (i : grid0.Coords) (a1 : Memref sig .tc .vmem S1024x256 .f32) (h1 : a1.IsWhole)
    (a2 : Memref sig .tc .vmem S16x256 .f32) (h2 : a2.IsWhole) (a3 : Memref sig .tc .vmem S512x256 .f32) (h3 : a3.IsWhole)
    (a4 : Memref sig .tc .vmem S1024x1 .f32) (h4 : a4.IsWhole) (hc : ¬cond0_0 i)
    (x0 : Vec F S1024x256 .f32) (x1 : Vec F S16x256 .f32) (x2 : Vec F S512x256 .f32) (xo : Vec F S1024x1 .f32) :
    out0_B_3 c i a1 h1 a2 h2 a3 h3 a4 h4 hc x0 x1 x2 xo = k0_pay2 x0 x1 x2 xo := by
  unfold out0_B_3
  rw [View.read_writes_eq_canon _ _ _ (cover0_B_3 c i a1 h1 a2 h2 a3 h3 a4 h4 hc x0 x1 x2 xo)]
  unfold kernelRun0_B
  dsimp only
  rw [View.canon_unit_zero hz]
  simp only [View.readAt_eq_ld, h1.read_unread, h2.read_unread, h3.read_unread, h4.read_unread,
    View.ld_unit_zero (S := S1024x256) hz, View.ld_unit_zero (S := S16x256) hz, View.ld_unit_zero (S := S512x256) hz,
    View.ld_unit_zero (S := S1024x1) hz]

/-- The first point: the body stores the zero column, reads it back, and leaves its arithmetic of the three input blocks
    and that zero column. -/
theorem first_value (c : Dev nD) (i : grid0.Coords) (a1 : Memref sig .tc .vmem S1024x256 .f32) (h1 : a1.IsWhole)
    (a2 : Memref sig .tc .vmem S16x256 .f32) (h2 : a2.IsWhole) (a3 : Memref sig .tc .vmem S512x256 .f32) (h3 : a3.IsWhole)
    (a4 : Memref sig .tc .vmem S1024x1 .f32) (h4 : a4.IsWhole) (hc : cond0_0 i)
    (x0 : Vec F S1024x256 .f32) (x1 : Vec F S16x256 .f32) (x2 : Vec F S512x256 .f32) :
    out0_A_3 c i a1 h1 a2 h2 a3 h3 a4 h4 hc x0 x1 x2 = k0_pay2 x0 x1 x2 (k0_pay1 (F := F)) := by
  unfold out0_A_3
  rw [View.read_writes_eq_canon _ _ _ (cover0_A_3 c i a1 h1 a2 h2 a3 h3 a4 h4 hc x0 x1 x2)]
  unfold kernelRun0_A
  dsimp only
  sl_unfold_words
  rw [View.canon_cons_unit_zero (S := S1024x1) hz, View.readCov_unit_zero (S := S1024x1) _ hz]
  simp only [View.readAt_eq_ld, h1.read_unread, h2.read_unread, h3.read_unread,
    View.ld_unit_zero (S := S1024x256) hz, View.ld_unit_zero (S := S16x256) hz, View.ld_unit_zero (S := S512x256) hz]

/-- The column after point `n`: the body's arithmetic of point `n`'s input blocks over the column after point `n - 1`,
    from the zero column at the first point. -/
def column (c : Dev nD) : (n : ℕ) → n < cfg0.N → Vec F S1024x1 .f32
  | 0, h => k0_pay2 (iblk m c 0 ⟨0, h⟩) (iblk m c 1 ⟨0, h⟩) (iblk m c 2 ⟨0, h⟩) (k0_pay1 (F := F))
  | n + 1, h => k0_pay2 (iblk m c 0 ⟨n + 1, h⟩) (iblk m c 1 ⟨n + 1, h⟩) (iblk m c 2 ⟨n + 1, h⟩)
      (column c n (Nat.lt_of_succ_lt h))

/-- What the output's staging buffer holds after point `n` is that column — by induction on the point. -/
theorem column_eq (c : Dev nD) : ∀ (n : ℕ) (h : n < cfg0.N), outsAt0 m c n h = column m c n h
  | 0, h => (outsAt0_A m c ⟨0, h⟩ rfl).trans (first_value ..)
  | n + 1, h => by
    have hN : cfg0.N = 64 := N_0
    have hB : ¬(⟨n + 1, h⟩ : Fin cfg0.N).val % 64 = 0 := by dsimp only; omega
    rw [outsAt0_B m c ⟨n + 1, h⟩ hB, later_value]
    show k0_pay2 _ _ _ (outsAt0 m c n _) = k0_pay2 _ _ _ (column m c n _)
    rw [column_eq c n]

end Cert.LossKernel

end
-- ==== Proof.KernelRun.lean ====
/-
  The kernel program's run, read as values.

  The output column is written back to its array once, after the last of the 64 grid points, and its one block is the
  whole [1024, 1] array; so the array ends holding the column the body left after point 63 (`final_column`). The one
  host operation after the region reshapes that [1024, 1] array into the [1024] result (`tail_result`), and the
  generated frame run, read at the result and at the four arguments, is `run`.
-/
import proofs.«119711_j52596169507059_2_alg».proof.Proof.CaseValues
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.LossKernel

open Cert.KernelIdeal Cert.KernelIdeal.Gen

variable {F : FTy → Type} [FloatOps F]
variable (m : (ℓ : Loc nD τ sig) → Buf (Elt F) ℓ) (ρ : Dev nD → PrngReg)

/-- The last grid point. -/
abbrev lastPoint : Fin cfg0.N := ⟨63, by rw [show cfg0.N = 64 from N_0]; decide⟩

/-- The column after the last point. -/
abbrev lastColumn (c : Dev nD) : Vec F S1024x1 .f32 := column m c 63 lastPoint.isLt

/-- The one write-back, at the last point, writes that column: block (0, 0) of the [1024, 1] array, read through zero
    offsets, is the array. -/
theorem flushed_eq (c : Dev nD) (t : Fin cfg0.N) (hf : (cfg0.win 3).flush t = true) :
    (dats m 0 c).flushed 3 t = ((cfg0.win 3).blk t).view.read (Elt F) (lastColumn m c) := by
  have hN : cfg0.N = 64 := N_0
  have h3 : t.val = 63 := by have := (flush0_3 t).mp hf; have := t.isLt; omega
  obtain rfl : t = lastPoint := Fin.ext h3
  show (cfg0.win 3).cut (grid0.coords lastPoint) ((dats m 0 c).after 3 lastPoint) = _
  rw [after0_3, column_eq]
  have hz' : (fun a => win0_3.index lastPoint a * main_v15.ty.shape.size a) = fun _ => 0 :=
    funext fun a => by fin_cases a <;> decide +kernel
  exact (Memref.read_access_unit_zero (Elt F) main_v15 hz' (fun a => by rw [congrFun hz' a]; simp) (lastColumn m c)).symm

/-- So the output array ends holding the column after the last point: that point's block covers it. -/
theorem final_column (c : Dev nD) : (dats m 0 c).arrAt 3 cfg0.N = lastColumn m c :=
  (dats m 0 c).arrAt_eq_of_cover 3 (lastColumn m c) (flushed_eq m c) fun i =>
    ⟨lastPoint, (flush0_3 lastPoint).mpr rfl, by
      show i ∈ ((View.whole main_v15).slice (win0_3.rect lastPoint)).set
      rw [View.set_slice_whole, Rect.mem_set_unit]
      intro a
      have h0 : (i 0 : Nat) < 1024 := (i 0).isLt
      have h1 : (i 1 : Nat) < 1 := (i 1).isLt
      match a with
      | ⟨0, _⟩ =>
        show win0_3.index lastPoint 0 * win0_3.size 0 ≤ (i 0 : Nat)
          ∧ (i 0 : Nat) < win0_3.index lastPoint 0 * win0_3.size 0 + win0_3.xsize (grid0.coords lastPoint) 0
        rw [show win0_3.index lastPoint 0 * win0_3.size 0 = 0 from by decide +kernel,
          show win0_3.xsize (grid0.coords lastPoint) 0 = 1024 from by decide +kernel]; omega
      | ⟨1, _⟩ =>
        show win0_3.index lastPoint 1 * win0_3.size 1 ≤ (i 1 : Nat)
          ∧ (i 1 : Nat) < win0_3.index lastPoint 1 * win0_3.size 1 + win0_3.xsize (grid0.coords lastPoint) 1
        rw [show win0_3.index lastPoint 1 * win0_3.size 1 = 0 from by decide +kernel,
          show win0_3.xsize (grid0.coords lastPoint) 1 = 1 from by decide +kernel]; omega⟩

/-- The host operation after the region: the result is the output array's column recast as a vector. -/
theorem tail_result (c : Dev nD) :
    Pipeline.afterTail₀ cfgs (dats m) 0 (V0 m) [hostOps1] c main_v16
      = shapeCast S1024 (lastColumn m c) shapeCasts_S1024x1_S1024 := by
  unfold Pipeline.afterTail₀
  show StableHlo.after hostOps1 _ (Proc.devRef .tc main_v16) = _
  after_results
  have e : Pipeline.withArrays (cfgs 0).spec c (V0 m c) (fun w => (dats m 0 c).arrAt w (cfgs 0).N)
      (Proc.devRef .tc main_v15) = lastColumn m c :=
    (Pipeline.withArrays_arr spec0 launch0.win.arr_inj c _ _ 3).trans (final_column m c)
  funext i
  exact congrFun (congrArg (fun v => shapeCast S1024 v shapeCasts_S1024x1_S1024) e) i

/-- The run, read: the result at the recast column after the last point, the four arguments unchanged. -/
theorem run : θ_run defs (onTc (τ := τ) (main (F := F))) ⟨m, fun _ => 0, ρ⟩ fun r => ∀ c : Dev nD,
      r.2.mem ((c.tc : Thread nD τ).loc main_v16) = shapeCast S1024 (lastColumn m c) shapeCasts_S1024x1_S1024
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v16 (Pipeline.mem_restRefs_of main_v16 (by decide) (by decide))).trans (tail_result m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.LossKernel

end
-- ==== Proof.BlockReads.lean ====
/-
  What the kernel's three input windows hold at a grid point, read at an index, and what the two gathered tables are.

  The batch window never moves: its block is the whole [1024, 256] array. The window of true rows takes rows
  `16 t` to `16 t + 15` of the gathered true table at point `t`, the window of sampled rows takes rows `512 t` to
  `512 t + 511` of the gathered sampled table: a block's coordinate is always its index times its size plus the
  coordinate inside the block. The two tables themselves are what the host operations before the region wrote:
  two row gathers of the weight table at the (wrapped) label and sample indices (`true_table`, `samp_table`).
-/
import proofs.«119711_j52596169507059_2_alg».proof.Proof.Gen.KernelIdeal.Frame
import Idealize.ShloMosaic.Lib.Pipeline.Value
import Idealize.ShloMosaic.Lib.StableHlo.Run
import Idealize.ShloMosaic.Lib.ValueIdx
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.LossKernel

open Cert.KernelIdeal Cert.KernelIdeal.Gen

variable {F : FTy → Type} [FloatOps F]
variable (m : (ℓ : Loc nD τ sig) → Buf (Elt F) ℓ)

/-- The windows' block indices at every grid point, decided once over the grid. -/
theorem index_facts : ∀ t : Fin cfg0.N,
    win0_0.index t 0 = 0 ∧ win0_0.index t 1 = 0 ∧ win0_1.index t 0 = t.val ∧ win0_1.index t 1 = 0
      ∧ win0_2.index t 0 = t.val ∧ win0_2.index t 1 = 0 :=
  (by decide +kernel : ∀ t : Fin grid0.N,
    win0_0.index t 0 = 0 ∧ win0_0.index t 1 = 0 ∧ win0_1.index t 0 = t.val ∧ win0_1.index t 1 = 0
      ∧ win0_2.index t 0 = t.val ∧ win0_2.index t 1 = 0)

theorem point_lt (t : Fin cfg0.N) : t.val < 64 := lt_of_lt_of_eq t.isLt (show cfg0.N = 64 from N_0)

/-- The batch block is the batch array. -/
theorem batch_block (c : Dev nD) (t : Fin cfg0.N) (b : Fin 1024) (h : Fin 256) :
    (iblk m c 0 t : Vec F S1024x256 .f32) (ix2 b h) = V m c main_arg0 (ix2 b h) := by
  have hi := index_facts t
  unfold iblk
  rw [View.read_apply]
  show V m c main_arg0 _ = V m c main_arg0 _
  congr 1
  funext a
  apply Fin.ext
  match a with
  | ⟨0, _⟩ => show win0_0.index t 0 * 1024 + 1 * b.val = b.val; rw [hi.1]; omega
  | ⟨1, _⟩ => show win0_0.index t 1 * 256 + 1 * h.val = h.val; rw [hi.2.1]; omega

/-- Row `a` of the true-row block at point `t` is row `16 t + a` of the gathered true table. -/
theorem true_block (c : Dev nD) (t : Fin cfg0.N) (a : Fin 16) (h : Fin 256) :
    (iblk m c 1 t : Vec F S16x256 .f32) (ix2 a h)
      = V m c main_v6 (ix2 (⟨16 * t.val + a.val, by have := point_lt t; omega⟩ : Fin 1024) h) := by
  have hi := index_facts t
  unfold iblk
  rw [View.read_apply]
  show V m c main_v6 _ = V m c main_v6 _
  congr 1
  funext d
  apply Fin.ext
  match d with
  | ⟨0, _⟩ => show win0_1.index t 0 * 16 + 1 * a.val = 16 * t.val + a.val; rw [hi.2.2.1]; omega
  | ⟨1, _⟩ => show win0_1.index t 1 * 256 + 1 * h.val = h.val; rw [hi.2.2.2.1]; omega

/-- Row `r` of the sampled-row block at point `t` is row `512 t + r` of the gathered sampled table. -/
theorem samp_block (c : Dev nD) (t : Fin cfg0.N) (r : Fin 512) (h : Fin 256) :
    (iblk m c 2 t : Vec F S512x256 .f32) (ix2 r h)
      = V m c main_v14 (ix2 (⟨512 * t.val + r.val, by have := point_lt t; omega⟩ : Fin 32768) h) := by
  have hi := index_facts t
  unfold iblk
  rw [View.read_apply]
  show V m c main_v14 _ = V m c main_v14 _
  congr 1
  funext d
  apply Fin.ext
  match d with
  | ⟨0, _⟩ => show win0_2.index t 0 * 512 + 1 * r.val = 512 * t.val + r.val; rw [hi.2.2.2.2.1]; omega
  | ⟨1, _⟩ => show win0_2.index t 1 * 256 + 1 * h.val = h.val; rw [hi.2.2.2.2.2]; omega

/-- The gathered true table, as the host operations before the region compute it from the labels and the weights. -/
theorem true_table (c : Dev nD) :
    (V m c main_v6 : S1024x256.Idx → Elt F .f32)
      = Host.gather gather_S100000x256_S1024x1_S1024x256_1_0_n_n_0_1_1256 (m ((c.tc : Thread nD τ).loc main_arg3))
          (broadcastInDim S1024x1 ![0] bcast_S1024_S1024x1_0
            (select (cmpi .slt (m ((c.tc : Thread nD τ).loc main_arg1)) (broadcastInDim S1024 ![] bcast_S_S1024 (constantI S_ 32 0#32)))
              (addi (m ((c.tc : Thread nD τ).loc main_arg1)) (broadcastInDim S1024 ![] bcast_S_S1024 (constantI S_ 32 100000#32)))
              (m ((c.tc : Thread nD τ).loc main_arg1)))) := by
  show StableHlo.after hostOps0 (fun b => m (c, b)) (Proc.devRef .tc main_v6) = _
  after_results

/-- The gathered sampled table, likewise from the flattened sample indices and the weights. -/
theorem samp_table (c : Dev nD) :
    (V m c main_v14 : S32768x256.Idx → Elt F .f32)
      = Host.gather gather_S100000x256_S32768x1_S32768x256_1_0_n_n_0_1_1256 (m ((c.tc : Thread nD τ).loc main_arg3))
          (broadcastInDim S32768x1 ![0] bcast_S32768_S32768x1_0
            (select (cmpi .slt (shapeCast _ (m ((c.tc : Thread nD τ).loc main_arg2)) shapeCasts_S1024x32_S32768) (broadcastInDim S32768 ![] bcast_S_S32768 (constantI S_ 32 0#32)))
              (addi (shapeCast _ (m ((c.tc : Thread nD τ).loc main_arg2)) shapeCasts_S1024x32_S32768) (broadcastInDim S32768 ![] bcast_S_S32768 (constantI S_ 32 100000#32)))
              (shapeCast _ (m ((c.tc : Thread nD τ).loc main_arg2)) shapeCasts_S1024x32_S32768))) := by
  show StableHlo.after hostOps0 (fun b => m (c, b)) (Proc.devRef .tc main_v14) = _
  after_results
  rfl

end Cert.LossKernel

end
-- ==== Proof.BodyValue.lean ====
/-
  The kernel body's arithmetic payload read at one row. With x the batch block (1024 × 256), t the block of sixteen true
  rows, s the block of 512 sampled rows (32 per true row) and acc the running column, the payload at (b, 0) is
      acc[b] + Σ_{a < 16} ( log Σ_{k < 32} exp ⟨x[b], s[32a + k]⟩ − ⟨x[b], t[a]⟩ ),
  where ⟨·,·⟩ is the inner product over the 256 features. At the ideal values the narrowing casts are the identity,
  each matrix product into the zero accumulator is the sum of products over the contracted axis, each one-axis
  reduction is the sum over that axis, and the shape casts move an entry to the index with the same row-major position.
-/
import proofs.«119711_j52596169507059_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

open Idealize.ShloMosaic Idealize.ShloMosaic.ValueIdx Cert.KernelIdeal Cert.KernelIdeal.Gen

namespace Cert.BodyValue

/-- The left operand's row coordinate under the contraction: the output's row. -/
theorem d16_lhs0 (i : S1024x16.Idx) (q : dot_S1024x256_S256x16_S1024x16_1_0_0_1_n_n.contr.Idx) : (dot_S1024x256_S256x16_S1024x16_1_0_0_1_n_n.lhsIdx i q 0).val = (i 0).val := by
  unfold DotDims.lhsIdx
  rw [dif_neg (show ¬(0 : Fin S1024x256.rank) ∈ dot_S1024x256_S256x16_S1024x16_1_0_0_1_n_n.lhsBatch by decide),
    dif_pos (show (0 : Fin S1024x256.rank) ∈ dot_S1024x256_S256x16_S1024x16_1_0_0_1_n_n.lhsNonContracting by decide)]
  rfl
/-- The left operand's column coordinate: the contraction coordinate. -/
theorem d16_lhs1 (i : S1024x16.Idx) (q : dot_S1024x256_S256x16_S1024x16_1_0_0_1_n_n.contr.Idx) : (dot_S1024x256_S256x16_S1024x16_1_0_0_1_n_n.lhsIdx i q 1).val = (q ⟨0, by decide⟩).val :=
  dot_S1024x256_S256x16_S1024x16_1_0_0_1_n_n.lhsIdx_val_of_single rfl i q
/-- The right operand's row coordinate: the contraction coordinate. -/
theorem d16_rhs0 (i : S1024x16.Idx) (q : dot_S1024x256_S256x16_S1024x16_1_0_0_1_n_n.contr.Idx) : (dot_S1024x256_S256x16_S1024x16_1_0_0_1_n_n.rhsIdx i q 0).val = (q ⟨0, by decide⟩).val :=
  dot_S1024x256_S256x16_S1024x16_1_0_0_1_n_n.rhsIdx_val_of_single rfl i q
/-- The right operand's column coordinate: the output's column. -/
theorem d16_rhs1 (i : S1024x16.Idx) (q : dot_S1024x256_S256x16_S1024x16_1_0_0_1_n_n.contr.Idx) : (dot_S1024x256_S256x16_S1024x16_1_0_0_1_n_n.rhsIdx i q 1).val = (i 1).val := by
  unfold DotDims.rhsIdx
  rw [dif_neg (show ¬(1 : Fin S256x16.rank) ∈ dot_S1024x256_S256x16_S1024x16_1_0_0_1_n_n.rhsBatch by decide),
    dif_pos (show (1 : Fin S256x16.rank) ∈ dot_S1024x256_S256x16_S1024x16_1_0_0_1_n_n.rhsNonContracting by decide)]
  rfl

/-- A row of the batch against sixteen columns, into the zero accumulator: the sum over the 256 features of the products. -/
theorem dot16_apply (l : FVec Ideal S1024x256 .bf16) (r : FVec Ideal S256x16 .bf16) (b : Fin 1024) (a : Fin 16) :
    matmul (F := Ideal) dot_S1024x256_S256x16_S1024x16_1_0_0_1_n_n none l r (constant S1024x16 .f32 0x00000000#32) (ix2 b a)
      = ∑ h : Fin 256, l (ix2 b h) * r (ix2 h a) := by
  simp only [matmul]
  rw [Ideal.matmul_constant_zero_apply, ← Equiv.sum_comp (ValueIdx.contrEquiv1 dot_S1024x256_S256x16_S1024x16_1_0_0_1_n_n 256 rfl rfl).symm]
  refine Finset.sum_congr rfl fun k _ => ?_
  have hk := ValueIdx.contrEquiv1_symm_val dot_S1024x256_S256x16_S1024x16_1_0_0_1_n_n 256 rfl rfl k
  have el : dot_S1024x256_S256x16_S1024x16_1_0_0_1_n_n.lhsIdx (ix2 b a) ((ValueIdx.contrEquiv1 dot_S1024x256_S256x16_S1024x16_1_0_0_1_n_n 256 rfl rfl).symm k) = ix2 b k :=
    funext fun c => Fin.ext (by
      match c with
      | ⟨0, _⟩ => exact d16_lhs0 _ _
      | ⟨1, _⟩ => exact (d16_lhs1 _ _).trans hk)
  have er : dot_S1024x256_S256x16_S1024x16_1_0_0_1_n_n.rhsIdx (ix2 b a) ((ValueIdx.contrEquiv1 dot_S1024x256_S256x16_S1024x16_1_0_0_1_n_n 256 rfl rfl).symm k) = ix2 k a :=
    funext fun c => Fin.ext (by
      match c with
      | ⟨0, _⟩ => exact (d16_rhs0 _ _).trans hk
      | ⟨1, _⟩ => exact d16_rhs1 _ _)
  rw [el, er]

/-- The left operand's row coordinate under the contraction: the output's row. -/
theorem d512_lhs0 (i : S1024x512.Idx) (q : dot_S1024x256_S256x512_S1024x512_1_0_0_1_n_n.contr.Idx) : (dot_S1024x256_S256x512_S1024x512_1_0_0_1_n_n.lhsIdx i q 0).val = (i 0).val := by
  unfold DotDims.lhsIdx
  rw [dif_neg (show ¬(0 : Fin S1024x256.rank) ∈ dot_S1024x256_S256x512_S1024x512_1_0_0_1_n_n.lhsBatch by decide),
    dif_pos (show (0 : Fin S1024x256.rank) ∈ dot_S1024x256_S256x512_S1024x512_1_0_0_1_n_n.lhsNonContracting by decide)]
  rfl
/-- The left operand's column coordinate: the contraction coordinate. -/
theorem d512_lhs1 (i : S1024x512.Idx) (q : dot_S1024x256_S256x512_S1024x512_1_0_0_1_n_n.contr.Idx) : (dot_S1024x256_S256x512_S1024x512_1_0_0_1_n_n.lhsIdx i q 1).val = (q ⟨0, by decide⟩).val :=
  dot_S1024x256_S256x512_S1024x512_1_0_0_1_n_n.lhsIdx_val_of_single rfl i q
/-- The right operand's row coordinate: the contraction coordinate. -/
theorem d512_rhs0 (i : S1024x512.Idx) (q : dot_S1024x256_S256x512_S1024x512_1_0_0_1_n_n.contr.Idx) : (dot_S1024x256_S256x512_S1024x512_1_0_0_1_n_n.rhsIdx i q 0).val = (q ⟨0, by decide⟩).val :=
  dot_S1024x256_S256x512_S1024x512_1_0_0_1_n_n.rhsIdx_val_of_single rfl i q
/-- The right operand's column coordinate: the output's column. -/
theorem d512_rhs1 (i : S1024x512.Idx) (q : dot_S1024x256_S256x512_S1024x512_1_0_0_1_n_n.contr.Idx) : (dot_S1024x256_S256x512_S1024x512_1_0_0_1_n_n.rhsIdx i q 1).val = (i 1).val := by
  unfold DotDims.rhsIdx
  rw [dif_neg (show ¬(1 : Fin S256x512.rank) ∈ dot_S1024x256_S256x512_S1024x512_1_0_0_1_n_n.rhsBatch by decide),
    dif_pos (show (1 : Fin S256x512.rank) ∈ dot_S1024x256_S256x512_S1024x512_1_0_0_1_n_n.rhsNonContracting by decide)]
  rfl

/-- A row of the batch against 512 columns, into the zero accumulator: the sum over the 256 features of the products. -/
theorem dot512_apply (l : FVec Ideal S1024x256 .bf16) (r : FVec Ideal S256x512 .bf16) (b : Fin 1024) (a : Fin 512) :
    matmul (F := Ideal) dot_S1024x256_S256x512_S1024x512_1_0_0_1_n_n none l r (constant S1024x512 .f32 0x00000000#32) (ix2 b a)
      = ∑ h : Fin 256, l (ix2 b h) * r (ix2 h a) := by
  simp only [matmul]
  rw [Ideal.matmul_constant_zero_apply, ← Equiv.sum_comp (ValueIdx.contrEquiv1 dot_S1024x256_S256x512_S1024x512_1_0_0_1_n_n 256 rfl rfl).symm]
  refine Finset.sum_congr rfl fun k _ => ?_
  have hk := ValueIdx.contrEquiv1_symm_val dot_S1024x256_S256x512_S1024x512_1_0_0_1_n_n 256 rfl rfl k
  have el : dot_S1024x256_S256x512_S1024x512_1_0_0_1_n_n.lhsIdx (ix2 b a) ((ValueIdx.contrEquiv1 dot_S1024x256_S256x512_S1024x512_1_0_0_1_n_n 256 rfl rfl).symm k) = ix2 b k :=
    funext fun c => Fin.ext (by
      match c with
      | ⟨0, _⟩ => exact d512_lhs0 _ _
      | ⟨1, _⟩ => exact (d512_lhs1 _ _).trans hk)
  have er : dot_S1024x256_S256x512_S1024x512_1_0_0_1_n_n.rhsIdx (ix2 b a) ((ValueIdx.contrEquiv1 dot_S1024x256_S256x512_S1024x512_1_0_0_1_n_n 256 rfl rfl).symm k) = ix2 k a :=
    funext fun c => Fin.ext (by
      match c with
      | ⟨0, _⟩ => exact (d512_rhs0 _ _).trans hk
      | ⟨1, _⟩ => exact d512_rhs1 _ _)
  rw [el, er]

/-- The [1024,512] → [1024,16,32] regrouping read at (b, a, k) is column 32a + k of row b. -/
theorem regroup_apply (y : FVec Ideal S1024x512 .f32) (b : Fin 1024) (a : Fin 16) (k : Fin 32) :
    shapeCast S1024x16x32 y shapeCasts_S1024x512_S1024x16x32 (ix3 b a k)
      = y (ix2 b (⟨a.val * 32 + k.val, by omega⟩ : Fin 512)) :=
  shapeCast_apply y shapeCasts_S1024x512_S1024x16x32 _ _ (by
    rw [Shape.rowMajor_val_two, Shape.rowMajor_val_three]
    show b.val * 512 + (a.val * 32 + k.val) = (b.val * 16 + a.val) * 32 + k.val
    omega)

/-- The [1024] → [1024,1] column read at (b, 0) is entry b. -/
theorem column_apply (z : FVec Ideal S1024 .f32) (b : Fin 1024) :
    shapeCast S1024x1 z shapeCasts_S1024_S1024x1 (ix2 b (0 : Fin 1)) = z (ix1 b) :=
  shapeCast_apply z shapeCasts_S1024_S1024x1 _ _ (by
    rw [Shape.rowMajor_val_one, Shape.rowMajor_val_two]
    show b.val = b.val * 1 + 0
    omega)

/-- The sum over the last axis of a [1024,16,32] block at (b, a): the 32 entries (b, a, k). -/
theorem sum32_apply (w : FVec Ideal S1024x16x32 .f32) (hφ : FKind.Formats .f32)
    (hacc : (0x00000000#32 : BitVec 32) = FKind.add.neutral .f32 hφ) (b : Fin 1024) (a : Fin 16) :
    multiReduction .add [2] S1024x16 w 0x00000000#32 reduces_S1024x16x32_S1024x16 hφ hacc (ix2 b a)
      = ∑ k : Fin 32, w (ix3 b a k) :=
  (Ideal.multiReduction_add_single w _ reduces_S1024x16x32_S1024x16 hφ hacc (ix2 b a)).trans
    (Finset.sum_congr rfl fun k _ =>
      congrArg w (funext fun c => Fin.ext (by match c with | ⟨0, _⟩ => rfl | ⟨1, _⟩ => rfl | ⟨2, _⟩ => rfl)))

/-- The sum over the last axis of a [1024,16] block at b: the 16 entries (b, a). -/
theorem sum16_apply (w : FVec Ideal S1024x16 .f32) (hφ : FKind.Formats .f32)
    (hacc : (0x00000000#32 : BitVec 32) = FKind.add.neutral .f32 hφ) (b : Fin 1024) :
    multiReduction .add [1] S1024 w 0x00000000#32 reduces_S1024x16_S1024 hφ hacc (ix1 b)
      = ∑ a : Fin 16, w (ix2 b a) :=
  (Ideal.multiReduction_add_single w _ reduces_S1024x16_S1024 hφ hacc (ix1 b)).trans
    (Finset.sum_congr rfl fun a _ =>
      congrArg w (funext fun c => Fin.ext (by match c with | ⟨0, _⟩ => rfl | ⟨1, _⟩ => rfl)))

/-- The true-row weights as the first product's right operand: cast, narrowed and transposed, entry (h, a) is entry (a, h). -/
theorem trueT_apply (x1 : Vec Ideal S16x256 .f32) (h : Fin 256) (a : Fin 16) :
    transpose S256x16 [1, 0] (truncf (F := Ideal) .bf16 (shapeCast S16x256 x1 shapeCasts_S16x256_S16x256) bitsLt_bf16_f32)
        transposes_S16x256_p1_0_S256x16 (ix2 h a) = x1 (ix2 a h) :=
  (transpose_ix2_apply _ transposes_S16x256_p1_0_S256x16 h a).trans
    (show shapeCast S16x256 x1 shapeCasts_S16x256_S16x256 (ix2 a h) = x1 (ix2 a h) from
      congrFun (shapeCast_self x1 shapeCasts_S16x256_S16x256) (ix2 a h))

/-- The sampled-row weights as the second product's right operand: entry (h, r) is entry (r, h). -/
theorem sampT_apply (x2 : Vec Ideal S512x256 .f32) (h : Fin 256) (r : Fin 512) :
    transpose S256x512 [1, 0] (truncf (F := Ideal) .bf16 (shapeCast S512x256 x2 shapeCasts_S512x256_S512x256) bitsLt_bf16_f32)
        transposes_S512x256_p1_0_S256x512 (ix2 h r) = x2 (ix2 r h) :=
  (transpose_ix2_apply _ transposes_S512x256_p1_0_S256x512 h r).trans
    (show shapeCast S512x256 x2 shapeCasts_S512x256_S512x256 (ix2 r h) = x2 (ix2 r h) from
      congrFun (shapeCast_self x2 shapeCasts_S512x256_S512x256) (ix2 r h))

/-- The true-row scores: entry (b, a) is the inner product of batch row b and true row a. -/
theorem trueDots (x0 : Vec Ideal S1024x256 .f32) (x1 : Vec Ideal S16x256 .f32) (b : Fin 1024) (a : Fin 16) :
    matmul (F := Ideal) dot_S1024x256_S256x16_S1024x16_1_0_0_1_n_n none (truncf .bf16 x0 bitsLt_bf16_f32)
        (transpose S256x16 [1, 0] (truncf (F := Ideal) .bf16 (shapeCast S16x256 x1 shapeCasts_S16x256_S16x256) bitsLt_bf16_f32)
          transposes_S16x256_p1_0_S256x16)
        (constant S1024x16 .f32 0x00000000#32) (ix2 b a)
      = ∑ h : Fin 256, x0 (ix2 b h) * x1 (ix2 a h) :=
  (dot16_apply _ _ b a).trans (Finset.sum_congr rfl fun h _ =>
    show x0 (ix2 b h) * _ = x0 (ix2 b h) * x1 (ix2 a h) from congrArg (x0 (ix2 b h) * ·) (trueT_apply x1 h a))

/-- The sampled-row scores: entry (b, r) is the inner product of batch row b and sampled row r. -/
theorem sampDots (x0 : Vec Ideal S1024x256 .f32) (x2 : Vec Ideal S512x256 .f32) (b : Fin 1024) (r : Fin 512) :
    matmul (F := Ideal) dot_S1024x256_S256x512_S1024x512_1_0_0_1_n_n none (truncf .bf16 x0 bitsLt_bf16_f32)
        (transpose S256x512 [1, 0] (truncf (F := Ideal) .bf16 (shapeCast S512x256 x2 shapeCasts_S512x256_S512x256) bitsLt_bf16_f32)
          transposes_S512x256_p1_0_S256x512)
        (constant S1024x512 .f32 0x00000000#32) (ix2 b r)
      = ∑ h : Fin 256, x0 (ix2 b h) * x2 (ix2 r h) :=
  (dot512_apply _ _ b r).trans (Finset.sum_congr rfl fun h _ =>
    show x0 (ix2 b h) * _ = x0 (ix2 b h) * x2 (ix2 r h) from congrArg (x0 (ix2 b h) * ·) (sampT_apply x2 h r))

/-- The reset block: the zero column. -/
theorem zero_apply (b : Fin 1024) : k0_pay1 (F := Ideal) (ix2 b 0) = Ideal.ofBits .f32 0x00000000#32 := rfl

/-- The body's payload at row b: the running entry plus, over the sixteen true rows a, the logarithm of the sum of the
    exponentials of the 32 sampled scores of group a, minus the true score. -/
theorem pay_apply (x0 : Vec Ideal S1024x256 .f32) (x1 : Vec Ideal S16x256 .f32) (x2 : Vec Ideal S512x256 .f32) (xo : Vec Ideal S1024x1 .f32) (b : Fin 1024) :
      k0_pay2 (F := Ideal) x0 x1 x2 xo (ix2 b 0)
        = xo (ix2 b 0) + ∑ a : Fin 16, (Ideal.log (∑ k : Fin 32, Ideal.exp (∑ h : Fin 256, x0 (ix2 b h) * x2 (ix2 (⟨a.val * 32 + k.val, by omega⟩ : Fin 512) h)))
            - ∑ h : Fin 256, x0 (ix2 b h) * x1 (ix2 a h)) := by
  unfold k0_pay2
  simp only []
  rw [addf_apply, shapeCast_self, column_apply]
  refine congrArg (xo (ix2 b 0) + ·) ((sum16_apply _ _ _ b).trans (Finset.sum_congr rfl fun a _ => ?_))
  refine congrArg₂ (· - ·) (congrArg Ideal.log ?_) (trueDots x0 x1 b a)
  refine (sum32_apply _ _ _ b a).trans (Finset.sum_congr rfl fun k _ => congrArg Ideal.exp ?_)
  exact (regroup_apply _ b a k).trans (sampDots x0 x2 b _)

end Cert.BodyValue

end
-- ==== Proof.ColumnValue.lean ====
/-
  The output column, over the extended reals, is the running total of the specification.

  Write `X` for the batch array and `TW`, `SW` for the two gathered tables as the region finds them. At grid point `t`
  the body adds to entry `b` of the column the sum, over the 16 rows `a` of the true-row block, of
      log (∑ k < 32, exp (x_b · (sampled block row 32 a + k))) - x_b · (true block row a).
  The true block's row `a` is row `16 t + a` of `TW` and the sampled block's row `32 a + k` is row
  `512 t + 32 a + k = 32 (16 t + a) + k` of `SW`: the `k`-th sample of label row `16 t + a`. So the amount added at point `t`
  is the specification's group sum (`group_value`), and the column after point `n` is its running total after group
  `n` (`column_value`, by induction on the point).
-/
import proofs.«119711_j52596169507059_2_alg».proof.Proof.CaseValues
import proofs.«119711_j52596169507059_2_alg».proof.Proof.BlockReads
import proofs.«119711_j52596169507059_2_alg».proof.Proof.BodyValue
import proofs.«119711_j52596169507059_2_alg».proof.Proof.LossSpec

noncomputable section

open Idealize.ShloMosaic Idealize.ShloMosaic.TcCoe Idealize.SL.Sem Idealize.ShloMosaic.ValueIdx

namespace Cert.LossKernel

open Cert.KernelIdeal Cert.KernelIdeal.Gen Cert.LossSpec

/-- For any three blocks that read the arrays `X`, `TW`, `SW` at the rows of group `t`, the amount the body adds to
    entry `b` is the group sum. -/
theorem group_value (X TW : S1024x256.Idx → EReal) (SW : S32768x256.Idx → EReal)
    (x0 : Vec Ideal S1024x256 .f32) (x1 : Vec Ideal S16x256 .f32) (x2 : Vec Ideal S512x256 .f32)
    (t : ℕ) (ht : t < 64) (b : Fin 1024)
    (h0 : ∀ (b : Fin 1024) (h : Fin 256), x0 (ix2 b h) = X (ix2 b h))
    (h1 : ∀ (a : Fin 16) (h : Fin 256), x1 (ix2 a h) = TW (ix2 (⟨16 * t + a.val, by omega⟩ : Fin 1024) h))
    (h2 : ∀ (r : Fin 512) (h : Fin 256), x2 (ix2 r h) = SW (ix2 (⟨512 * t + r.val, by omega⟩ : Fin 32768) h)) :
    (∑ a : Fin 16, (Ideal.log (∑ k : Fin 32, Ideal.exp (∑ h : Fin 256,
        x0 (ix2 b h) * x2 (ix2 (⟨a.val * 32 + k.val, by omega⟩ : Fin 512) h)))
      - ∑ h : Fin 256, x0 (ix2 b h) * x1 (ix2 a h)))
      = groupSum X TW SW b t := by
  unfold groupSum
  refine Finset.sum_congr rfl fun a _ => ?_
  unfold rowTermN
  rw [dif_pos (show 16 * t + a.val < 1024 by omega)]
  unfold rowTerm sampScore trueScore
  have e : ∀ k : Fin 32, (⟨512 * t + (a.val * 32 + k.val), by omega⟩ : Fin 32768)
      = sampleRow (⟨16 * t + a.val, by omega⟩ : Fin 1024) k := fun k => Fin.ext (by
    show 512 * t + (a.val * 32 + k.val) = (16 * t + a.val) * 32 + k.val
    omega)
  refine congrArg₂ (fun u v => Ideal.log u - v) (Finset.sum_congr rfl fun k _ => ?_) (Finset.sum_congr rfl fun h _ => ?_)
  · refine congrArg Ideal.exp (Finset.sum_congr rfl fun h _ => ?_)
    rw [h0 b h, h2 (⟨a.val * 32 + k.val, by omega⟩ : Fin 512) h]
    exact congrArg (fun r => X (ix2 b h) * SW (ix2 r h)) (e k)
  · rw [h0 b h, h1 a h]

/-- So one step of the body, at entry `b`, adds the group sum to the entry read. -/
theorem step_value (X TW : S1024x256.Idx → EReal) (SW : S32768x256.Idx → EReal)
    (x0 : Vec Ideal S1024x256 .f32) (x1 : Vec Ideal S16x256 .f32) (x2 : Vec Ideal S512x256 .f32) (xo : Vec Ideal S1024x1 .f32)
    (t : ℕ) (ht : t < 64) (b : Fin 1024)
    (h0 : ∀ (b : Fin 1024) (h : Fin 256), x0 (ix2 b h) = X (ix2 b h))
    (h1 : ∀ (a : Fin 16) (h : Fin 256), x1 (ix2 a h) = TW (ix2 (⟨16 * t + a.val, by omega⟩ : Fin 1024) h))
    (h2 : ∀ (r : Fin 512) (h : Fin 256), x2 (ix2 r h) = SW (ix2 (⟨512 * t + r.val, by omega⟩ : Fin 32768) h)) :
    k0_pay2 (F := Ideal) x0 x1 x2 xo (ix2 b 0) = xo (ix2 b 0) + groupSum X TW SW b t :=
  (Cert.BodyValue.pay_apply x0 x1 x2 xo b).trans
    (congrArg (xo (ix2 b 0) + ·) (group_value X TW SW x0 x1 x2 t ht b h0 h1 h2))

variable (m : (ℓ : Loc nD τ sig) → Buf (Elt Ideal) ℓ)

/-- The column after point `n`, at entry `b`, is the running total after group `n` of the three arrays the region finds. -/
theorem column_value (c : Dev nD) (b : Fin 1024) : ∀ (n : ℕ) (h : n < cfg0.N),
    column m c n h (ix2 b 0) = running (V m c main_arg0) (V m c main_v6) (V m c main_v14) b n
  | 0, h => by
    unfold column running
    exact (step_value (V m c main_arg0) (V m c main_v6) (V m c main_v14)
      (iblk m c 0 ⟨0, h⟩) (iblk m c 1 ⟨0, h⟩) (iblk m c 2 ⟨0, h⟩) (k0_pay1 (F := Ideal)) 0 (by decide) b
      (fun b' h' => batch_block m c ⟨0, h⟩ b' h') (fun a h' => true_block m c ⟨0, h⟩ a h')
      (fun r h' => samp_block m c ⟨0, h⟩ r h')).trans
      (congrArg (· + groupSum (V m c main_arg0) (V m c main_v6) (V m c main_v14) b 0) (Cert.BodyValue.zero_apply b))
  | n + 1, h => by
    have hn : n + 1 < 64 := lt_of_lt_of_eq h (show cfg0.N = 64 from N_0)
    unfold column running
    exact (step_value (V m c main_arg0) (V m c main_v6) (V m c main_v14)
      (iblk m c 0 ⟨n + 1, h⟩) (iblk m c 1 ⟨n + 1, h⟩) (iblk m c 2 ⟨n + 1, h⟩) (column m c n (Nat.lt_of_succ_lt h)) (n + 1) hn b
      (fun b' h' => batch_block m c ⟨n + 1, h⟩ b' h') (fun a h' => true_block m c ⟨n + 1, h⟩ a h')
      (fun r h' => samp_block m c ⟨n + 1, h⟩ r h')).trans
      (congrArg (· + groupSum (V m c main_arg0) (V m c main_v6) (V m c main_v14) b (n + 1)) (column_value c b n (Nat.lt_of_succ_lt h)))

end Cert.LossKernel

end
-- ==== Proof.lean ====
/-
  The proof of `Cert.Claim`: the sampled-softmax loss kernel against its reference.

  Both programs gather one true row per label and 32 sampled rows per label from the weight table (the same host
  operations, read the same way on both sides), score every batch row against every gathered row by an inner product
  over the 256 hidden coordinates, and return for batch row `b`
      ∑ i < 1024, ( log (∑ k < 32, exp (x_b · sw_(32 i + k))) - x_b · tw_i ).
  The reference adds the 1024 terms at once. The kernel walks the label rows in 64 groups of 16, one group per grid point,
  and keeps a column of running totals in one output block: the first point starts it from the float zero, every later
  point adds its group's sum to what the point before left, and the block is written back once, after the last point.
  Over the extended reals a format change is the identity, a product into the zero accumulator and a lane reduction are
  plain finite sums, and addition is commutative and associative at every value, so the running total after the last
  group is the whole sum: the two results are equal entry by entry, with no use of the inputs being finite.

  The three frames are the generated frame of each kernel program and the reference's generated run with its result
  dropped; the idealization rewrote nothing, so `preserves` is trivial.
-/
import proofs.«119711_j52596169507059_2_alg».proof.Defs
import proofs.«119711_j52596169507059_2_alg».proof.Proof.Gen.Kernel
import proofs.«119711_j52596169507059_2_alg».proof.Proof.Gen.Kernel.Skeleton
import proofs.«119711_j52596169507059_2_alg».proof.Proof.Gen.Kernel.Launch
import proofs.«119711_j52596169507059_2_alg».proof.Proof.Gen.Kernel.Points
import proofs.«119711_j52596169507059_2_alg».proof.Proof.Gen.Kernel.Frame
import proofs.«119711_j52596169507059_2_alg».proof.Proof.Gen.KernelIdeal
import proofs.«119711_j52596169507059_2_alg».proof.Proof.Gen.KernelIdeal.Skeleton
import proofs.«119711_j52596169507059_2_alg».proof.Proof.Gen.KernelIdeal.Launch
import proofs.«119711_j52596169507059_2_alg».proof.Proof.Gen.KernelIdeal.Points
import proofs.«119711_j52596169507059_2_alg».proof.Proof.Gen.KernelIdeal.Frame
import proofs.«119711_j52596169507059_2_alg».proof.Proof.Gen.ReferenceIdeal
import proofs.«119711_j52596169507059_2_alg».proof.Proof.Gen.ReferenceIdeal.Run
import proofs.«119711_j52596169507059_2_alg».proof.Proof.Gen.ReferenceIdeal.Read
import proofs.«119711_j52596169507059_2_alg».proof.Proof.Gen.Pre_finite_inputs
import proofs.«119711_j52596169507059_2_alg».proof.Proof.LossSpec
import proofs.«119711_j52596169507059_2_alg».proof.Proof.RefRead
import proofs.«119711_j52596169507059_2_alg».proof.Proof.KernelRun
import proofs.«119711_j52596169507059_2_alg».proof.Proof.ColumnValue
import Idealize.ShloMosaic.Adequacy
import Idealize.ShloMosaic.Init

noncomputable section

namespace Cert.Proof

open Idealize.ShloMosaic Idealize.ShloMosaic.TcCoe Idealize.SL.Sem Idealize.ShloMosaic.ValueIdx

/-- The kernel program's result, over the extended reals, is the loss of the three arrays the region finds: entry `j`
    of the recast column is the column's entry `(j, 0)`, the running total after the last group. -/
theorem kernel_result (m : (ℓ : Loc Cert.KernelIdeal.nD Cert.KernelIdeal.τ Cert.KernelIdeal.sig) → Buf (Elt Ideal) ℓ)
    (c : Dev Cert.KernelIdeal.nD) :
    shapeCast Cert.KernelIdeal.S1024 (Cert.LossKernel.lastColumn m c) Cert.KernelIdeal.Facts₀.shapeCasts_S1024x1_S1024
      = Cert.LossSpec.loss (Cert.KernelIdeal.Gen.V m c Cert.KernelIdeal.main_arg0)
          (Cert.KernelIdeal.Gen.V m c Cert.KernelIdeal.main_v6) (Cert.KernelIdeal.Gen.V m c Cert.KernelIdeal.main_v14) := by
  funext j
  have hj : (j 0).val < 1024 := (j 0).isLt
  refine (shapeCast_apply (Cert.LossKernel.lastColumn m c) Cert.KernelIdeal.Facts₀.shapeCasts_S1024x1_S1024 j
    (ix2 (n0 := 1024) (n1 := 1) ⟨(j 0).val, hj⟩ 0) (by
      rewrite [Shape.rowMajor_val_two, Shape.rowMajor_val_one]
      show (j 0).val * 1 + 0 = (j 0).val
      omega)).trans ?_
  refine (Cert.LossKernel.column_value m c ⟨(j 0).val, hj⟩ 63 Cert.LossKernel.lastPoint.isLt).trans ?_
  exact Cert.LossSpec.running_last _ _ _ j

theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Over the extended reals the kernel's result is the loss of the batch and the two tables the host operations before
    the region gather (`kernel_result`, `true_table`, `samp_table`), and the reference's result is the loss of the same
    batch and the same two gathers of arguments that agree (`ref_is_loss`). -/
theorem algebraic : Cert.algebraic_KernelIdeal_ReferenceIdeal := by
  intro m ρ m' ρ' _ hagree
  refine ⟨fun c => shapeCast Cert.KernelIdeal.S1024 (Cert.LossKernel.lastColumn m c)
    Cert.KernelIdeal.Facts₀.shapeCasts_S1024x1_S1024, Cert.LossKernel.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v24_eq, Cert.RefRead.ref_is_loss,
    (hagree c).1, (hagree c).2.1, (hagree c).2.2.1, (hagree c).2.2.2]
  refine Eq.trans ?_ (kernel_result m c).symm
  rw [Cert.LossKernel.true_table m c, Cert.LossKernel.samp_table m c, Cert.KernelIdeal.Gen.V_main_arg0 m c]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
